-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x65536 : Shape := ⟨3, ![16, 128, 65536]⟩
abbrev S16x512 : Shape := ⟨2, ![16, 512]⟩
abbrev S128x128 : Shape := ⟨2, ![128, 128]⟩
abbrev S128 : Shape := ⟨1, ![128]⟩
abbrev S768x512 : Shape := ⟨2, ![768, 512]⟩
abbrev S768 : Shape := ⟨1, ![768]⟩
abbrev S_ : Shape := ⟨0, ![]⟩

class Facts : Prop where
  bcast_S_S16x128x65536 : S_.BroadcastsInDim S16x128x65536 (![] : Fin 0 → Fin S16x128x65536.rank)
  reducesTo_S16x128x65536_S_d0_1_2 : S16x128x65536.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S768x512 : S_.BroadcastsInDim S768x512 (![] : Fin 0 → Fin S768x512.rank)
  reducesTo_S768x512_S_d0_1 : S768x512.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x512 .f32) (main_arg5 : FVec F S768 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S768x512 .f32 := Host.absf main_arg4
  let main_cst_6 : FVec F S_ .f32 := constant S_ .f32 0x7F800000#32
  let main_v20 : FVec F S768x512 .f32 := broadcastInDim S768x512 ![] bcast_S_S768x512 main_cst_6
  let main_v21 : IVec S768x512 1 := cmpf .olt main_v19 main_v20
  let main_c_7 : IVec S_ 1 := constantI S_ 1 1#1
  let main_v22 : IVec S_ 1 := (fun x v => Host.reduce IntOp.andi x v reducesTo_S768x512_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S16x128x65536 .f32) (main_arg1 : FVec F S16x512 .f32) (main_arg2 : FVec F S128x128 .f32) (main_arg3 : FVec F S128 .f32) (main_arg4 : FVec F S768x512 .f32) (main_arg5 : FVec F S768 .f32) : IVec S_ 1 :=
  let main_v0 : FVec F S16x128x65536 .f32 := Host.absf main_arg0
  let main_cst : FVec F S_ .f32 := constant S_ .f32 0x7F800000#32
  let main_v1 : FVec F S16x128x65536 .f32 := broadcastInDim S16x128x65536 ![] bcast_S_S16x128x65536 main_cst
  let main_v2 : IVec S16x128x65536 1 := cmpf .olt main_v0 main_v1
  let main_c : IVec S_ 1 := constantI S_ 1 1#1
  let main_v3 : IVec S_ 1 := (fun x v => Host.reduce IntOp.andi x v reducesTo_S16x128x65536_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16x128x65536 : Shape := ⟨3, ![16, 128, 65536]⟩
abbrev S16x512 : Shape := ⟨2, ![16, 512]⟩
abbrev S128x128 : Shape := ⟨2, ![128, 128]⟩
abbrev S128 : Shape := ⟨1, ![128]⟩
abbrev S768x512 : Shape := ⟨2, ![768, 512]⟩
abbrev S768 : Shape := ⟨1, ![768]⟩
abbrev S_ : Shape := ⟨0, ![]⟩
abbrev S512x768 : Shape := ⟨2, ![512, 768]⟩
abbrev S16x768 : Shape := ⟨2, ![16, 768]⟩
abbrev S1x768 : Shape := ⟨2, ![1, 768]⟩
abbrev S16x384 : Shape := ⟨2, ![16, 384]⟩
abbrev S16x128x3 : Shape := ⟨3, ![16, 128, 3]⟩
abbrev S16x3x128 : Shape := ⟨3, ![16, 3, 128]⟩
abbrev S16x128x128 : Shape := ⟨3, ![16, 128, 128]⟩
abbrev S1x128x128 : Shape := ⟨3, ![1, 128, 128]⟩
abbrev S16x128 : Shape := ⟨2, ![16, 128]⟩
abbrev S16x128x1 : Shape := ⟨3, ![16, 128, 1]⟩
abbrev S128x1 : Shape := ⟨2, ![128, 1]⟩
abbrev S1x128x8192 : Shape := ⟨3, ![1, 128, 8192]⟩
abbrev S128x8192 : Shape := ⟨2, ![128, 8192]⟩

abbrev nBuf : Space → Nat
  | .hbm => 40
  | .vmem => 7
  | .smem => 0
  | _ => 0

abbrev bufTy : (tb : Table) → Fin (tcTables nBuf tb) → BufTy
  | .hbm, ⟨0, _⟩ => ⟨S16x128x65536, .f32⟩
  | .hbm, ⟨1, _⟩ => ⟨S16x512, .f32⟩
  | .hbm, ⟨2, _⟩ => ⟨S128x128, .f32⟩
  | .hbm, ⟨3, _⟩ => ⟨S128, .f32⟩
  | .hbm, ⟨4, _⟩ => ⟨S768x512, .f32⟩
  | .hbm, ⟨5, _⟩ => ⟨S768, .f32⟩
  | .hbm, ⟨6, _⟩ => ⟨S_, .f32⟩
  | .hbm, ⟨7, _⟩ => ⟨S768x512, .f32⟩
  | .hbm, ⟨8, _⟩ => ⟨S768x512, .f32⟩
  | .hbm, ⟨9, _⟩ => ⟨S512x768, .f32⟩
  | .hbm, ⟨10, _⟩ => ⟨S16x768, .f32⟩
  | .hbm, ⟨11, _⟩ => ⟨S1x768, .f32⟩
  | .hbm, ⟨12, _⟩ => ⟨S16x768, .f32⟩
  | .hbm, ⟨13, _⟩ => ⟨S16x768, .f32⟩
  | .hbm, ⟨14, _⟩ => ⟨S16x384, .f32⟩
  | .hbm, ⟨15, _⟩ => ⟨S16x128x3, .f32⟩
  | .hbm, ⟨16, _⟩ => ⟨S16x384, .f32⟩
  | .hbm, ⟨17, _⟩ => ⟨S16x3x128, .f32⟩
  | .hbm, ⟨18, _⟩ => ⟨S16x128x128, .f32⟩
  | .hbm, ⟨19, _⟩ => ⟨S_, .f32⟩
  | .hbm, ⟨20, _⟩ => ⟨S16x128x128, .f32⟩
  | .hbm, ⟨21, _⟩ => ⟨S16x128x128, .f32⟩
  | .hbm, ⟨22, _⟩ => ⟨S1x128x128, .f32⟩
  | .hbm, ⟨23, _⟩ => ⟨S_, .f32⟩
  | .hbm, ⟨24, _⟩ => ⟨S16x128x128, .f32⟩
  | .hbm, ⟨25, _⟩ => ⟨S16x128x128, .f32⟩
  | .hbm, ⟨26, _⟩ => ⟨S16x128x128, .f32⟩
  | .hbm, ⟨27, _⟩ => ⟨S16x128x128, .f32⟩
  | .hbm, ⟨28, _⟩ => ⟨S16x128x128, .f32⟩
  | .hbm, ⟨29, _⟩ => ⟨S_, .f32⟩
  | .hbm, ⟨30, _⟩ => ⟨S16x128, .f32⟩
  | .hbm, ⟨31, _⟩ => ⟨S16x128x1, .f32⟩
  | .hbm, ⟨32, _⟩ => ⟨S16x128x1, .f32⟩
  | .hbm, ⟨33, _⟩ => ⟨S_, .f32⟩
  | .hbm, ⟨34, _⟩ => ⟨S16x128x1, .f32⟩
  | .hbm, ⟨35, _⟩ => ⟨S16x128x1, .f32⟩
  | .hbm, ⟨36, _⟩ => ⟨S16x128x128, .f32⟩
  | .hbm, ⟨37, _⟩ => ⟨S16x128x128, .f32⟩
  | .hbm, ⟨38, _⟩ => ⟨S128x1, .f32⟩
  | .hbm, ⟨39, _⟩ => ⟨S16x128x65536, .f32⟩
  | .local _ .vmem, ⟨0, _⟩ => ⟨S1x128x128, .f32⟩
  | .local _ .vmem, ⟨1, _⟩ => ⟨S1x128x128, .f32⟩
  | .local _ .vmem, ⟨2, _⟩ => ⟨S1x128x8192, .f32⟩
  | .local _ .vmem, ⟨3, _⟩ => ⟨S1x128x8192, .f32⟩
  | .local _ .vmem, ⟨4, _⟩ => ⟨S128x1, .f32⟩
  | .local _ .vmem, ⟨5, _⟩ => ⟨S1x128x8192, .f32⟩
  | .local _ .vmem, ⟨6, _⟩ => ⟨S1x128x8192, .f32⟩
  | _, _ => ⟨S16x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S768x512 : S_.BroadcastsInDim S768x512 (![] : Fin 0 → Fin S768x512.rank)
  transposes_S768x512_S512x768_1_0 : S768x512.Transposes [1, 0] S512x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S16x768_S16x384_0_0 : S16x768.Slices ![0, 0] S16x384
  shapeCasts_S16x384_S16x128x3 : S16x384.ShapeCasts S16x128x3
  slices_S16x768_S16x384_0_384 : S16x768.Slices ![0, 384] S16x384
  shapeCasts_S16x384_S16x3x128 : S16x384.ShapeCasts S16x3x128
  bcast_S_S16x128x128 : S_.BroadcastsInDim S16x128x128 (![] : Fin 0 → Fin S16x128x128.rank)
  bcast_S128x128_S1x128x128_1_2 : S128x128.BroadcastsInDim S1x128x128 (![1, 2] : Fin 2 → Fin S1x128x128.rank)
  bcast_S1x128x128_S16x128x128_0_1_2 : S1x128x128.BroadcastsInDim S16x128x128 (![0, 1, 2] : Fin 3 → Fin S16x128x128.rank)
  reducesTo_S16x128x128_S16x128_d2 : S16x128x128.ReducesTo [2] S16x128
  h_S_ : 0 < S_.numel
  bcast_S16x128_S16x128x1_0_1 : S16x128.BroadcastsInDim S16x128x1 (![0, 1] : Fin 2 → Fin S16x128x1.rank)
  bcast_S_S16x128x1 : S_.BroadcastsInDim S16x128x1 (![] : Fin 0 → Fin S16x128x1.rank)
  bcast_S16x128x1_S16x128x128_0_1_2 : S16x128x1.BroadcastsInDim S16x128x128 (![0, 1, 2] : Fin 3 → Fin S16x128x128.rank)
  shapeCasts_S128_S128x1 : S128.ShapeCasts S128x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8192 : S128x1.Broadcasts S128x8192
  shapeCasts_S128x8192_S1x128x8192 : S128x8192.ShapeCasts S1x128x8192
  dot_S16x512_S512x768_S16x768_1_0_0_1_n_n_wf : DotDims.WF S16x512 S512x768 S16x768 [1] [0] [0] [1] [] []
  dot_S16x128x3_S16x3x128_S16x128x128_2_1_1_2_0_0_wf : DotDims.WF S16x128x3 S16x3x128 S16x128x128 [2] [1] [1] [2] [0] [0]
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S16x128x128.size a
  hwx0_0 : ∀ i : grid0.Coords, EltTy.bits .f32 = 32 ∨ (Rect.block (s := S16x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S16x128x65536.size a
  hwx0_1 : ∀ i : grid0.Coords, EltTy.bits .f32 = 32 ∨ (Rect.block (s := S16x128x65536) S1x128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x8192.size a ≤ S16x128x65536.size a
  hwx0_3 : ∀ i : grid0.Coords, EltTy.bits .f32 = 32 ∨ (Rect.block (s := S16x128x65536) S1x128x8192.size (cc0_transform_3 i) (hinb0_3 i)).WholeWords (EltTy.packing .f32)

variable [Facts₀]

def dot_S16x512_S512x768_S16x768_1_0_0_1_n_n : DotDims S16x512 S512x768 S16x768 where
  lhsContracting := [1]
  rhsContracting := [0]
  lhsNonContracting := [0]
  rhsNonContracting := [1]
  lhsBatch := []
  rhsBatch := []
  wf := dot_S16x512_S512x768_S16x768_1_0_0_1_n_n_wf
def dot_S16x128x3_S16x3x128_S16x128x128_2_1_1_2_0_0 : DotDims S16x128x3 S16x3x128 S16x128x128 where
  lhsContracting := [2]
  rhsContracting := [1]
  lhsNonContracting := [1]
  rhsNonContracting := [2]
  lhsBatch := [0]
  rhsBatch := [0]
  wf := dot_S16x128x3_S16x3x128_S16x128x128_2_1_1_2_0_0_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v26) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x65536 : Shape := ⟨3, ![16, 128, 65536]⟩
abbrev S16x512 : Shape := ⟨2, ![16, 512]⟩
abbrev S128x128 : Shape := ⟨2, ![128, 128]⟩
abbrev S128 : Shape := ⟨1, ![128]⟩
abbrev S768x512 : Shape := ⟨2, ![768, 512]⟩
abbrev S768 : Shape := ⟨1, ![768]⟩
abbrev S_ : Shape := ⟨0, ![]⟩
abbrev S512x768 : Shape := ⟨2, ![512, 768]⟩
abbrev S16x768 : Shape := ⟨2, ![16, 768]⟩
abbrev S1x768 : Shape := ⟨2, ![1, 768]⟩
abbrev S16x384 : Shape := ⟨2, ![16, 384]⟩
abbrev S16x128x3 : Shape := ⟨3, ![16, 128, 3]⟩
abbrev S16x3x128 : Shape := ⟨3, ![16, 3, 128]⟩
abbrev S16x128x128 : Shape := ⟨3, ![16, 128, 128]⟩
abbrev S1x128x128 : Shape := ⟨3, ![1, 128, 128]⟩
abbrev S16x128 : Shape := ⟨2, ![16, 128]⟩
abbrev S16x128x1 : Shape := ⟨3, ![16, 128, 1]⟩
abbrev S1x128x1 : Shape := ⟨3, ![1, 128, 1]⟩

abbrev nBuf : Space → Nat
  | .hbm => 52
  | .vmem => 0
  | .smem => 0
  | _ => 0

abbrev bufTy : (tb : Table) → Fin (tcTables nBuf tb) → BufTy
  | .hbm, ⟨0, _⟩ => ⟨S16x128x65536, .f32⟩
  | .hbm, ⟨1, _⟩ => ⟨S16x512, .f32⟩
  | .hbm, ⟨2, _⟩ => ⟨S128x128, .f32⟩
  | .hbm, ⟨3, _⟩ => ⟨S128, .f32⟩
  | .hbm, ⟨4, _⟩ => ⟨S768x512, .f32⟩
  | .hbm, ⟨5, _⟩ => ⟨S768, .f32⟩
  | .hbm, ⟨6, _⟩ => ⟨S_, .f32⟩
  | .hbm, ⟨7, _⟩ => ⟨S768x512, .f32⟩
  | .hbm, ⟨8, _⟩ => ⟨S768x512, .f32⟩
  | .hbm, ⟨9, _⟩ => ⟨S512x768, .f32⟩
  | .hbm, ⟨10, _⟩ => ⟨S16x768, .f32⟩
  | .hbm, ⟨11, _⟩ => ⟨S1x768, .f32⟩
  | .hbm, ⟨12, _⟩ => ⟨S16x768, .f32⟩
  | .hbm, ⟨13, _⟩ => ⟨S16x768, .f32⟩
  | .hbm, ⟨14, _⟩ => ⟨S16x384, .f32⟩
  | .hbm, ⟨15, _⟩ => ⟨S16x128x3, .f32⟩
  | .hbm, ⟨16, _⟩ => ⟨S16x384, .f32⟩
  | .hbm, ⟨17, _⟩ => ⟨S16x3x128, .f32⟩
  | .hbm, ⟨18, _⟩ => ⟨S16x128x128, .f32⟩
  | .hbm, ⟨19, _⟩ => ⟨S_, .f32⟩
  | .hbm, ⟨20, _⟩ => ⟨S16x128x128, .f32⟩
  | .hbm, ⟨21, _⟩ => ⟨S16x128x128, .f32⟩
  | .hbm, ⟨22, _⟩ => ⟨S1x128x128, .f32⟩
  | .hbm, ⟨23, _⟩ => ⟨S_, .f32⟩
  | .hbm, ⟨24, _⟩ => ⟨S16x128x128, .f32⟩
  | .hbm, ⟨25, _⟩ => ⟨S16x128x128, .f32⟩
  | .hbm, ⟨26, _⟩ => ⟨S16x128x128, .f32⟩
  | .hbm, ⟨27, _⟩ => ⟨S16x128x128, .f32⟩
  | .hbm, ⟨28, _⟩ => ⟨S16x128x128, .f32⟩
  | .hbm, ⟨29, _⟩ => ⟨S_, .f32⟩
  | .hbm, ⟨30, _⟩ => ⟨S16x128, .f32⟩
  | .hbm, ⟨31, _⟩ => ⟨S16x128x1, .f32⟩
  | .hbm, ⟨32, _⟩ => ⟨S16x128x1, .f32⟩
  | .hbm, ⟨33, _⟩ => ⟨S_, .f32⟩
  | .hbm, ⟨34, _⟩ => ⟨S16x128x1, .f32⟩
  | .hbm, ⟨35, _⟩ => ⟨S16x128x1, .f32⟩
  | .hbm, ⟨36, _⟩ => ⟨S16x128x128, .f32⟩
  | .hbm, ⟨37, _⟩ => ⟨S16x128x128, .f32⟩
  | .hbm, ⟨38, _⟩ => ⟨S16x128x65536, .f32⟩
  | .hbm, ⟨39, _⟩ => ⟨S1x128x1, .f32⟩
  | .hbm, ⟨40, _⟩ => ⟨S16x128x65536, .f32⟩
  | .hbm, ⟨41, _⟩ => ⟨S16x128x65536, .f32⟩
  | .hbm, ⟨42, _⟩ => ⟨S_, .f32⟩
  | .hbm, ⟨43, _⟩ => ⟨S16x128x65536, .f32⟩
  | .hbm, ⟨44, _⟩ => ⟨S16x128x65536, .i1⟩
  | .hbm, ⟨45, _⟩ => ⟨S_, .f32⟩
  | .hbm, ⟨46, _⟩ => ⟨S16x128x65536, .f32⟩
  | .hbm, ⟨47, _⟩ => ⟨S16x128x65536, .f32⟩
  | .hbm, ⟨48, _⟩ => ⟨S16x128x65536, .f32⟩
  | .hbm, ⟨49, _⟩ => ⟨S_, .f32⟩
  | .hbm, ⟨50, _⟩ => ⟨S16x128x65536, .f32⟩
  | .hbm, ⟨51, _⟩ => ⟨S16x128x65536, .f32⟩
  | _, _ => ⟨S16x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  bcast_S_S768x512 : S_.BroadcastsInDim S768x512 (![] : Fin 0 → Fin S768x512.rank)
  transposes_S768x512_S512x768_1_0 : S768x512.Transposes [1, 0] S512x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  slices_S16x768_S16x384_0_0 : S16x768.Slices ![0, 0] S16x384
  shapeCasts_S16x384_S16x128x3 : S16x384.ShapeCasts S16x128x3
  slices_S16x768_S16x384_0_384 : S16x768.Slices ![0, 384] S16x384
  shapeCasts_S16x384_S16x3x128 : S16x384.ShapeCasts S16x3x128
  bcast_S_S16x128x128 : S_.BroadcastsInDim S16x128x128 (![] : Fin 0 → Fin S16x128x128.rank)
  bcast_S128x128_S1x128x128_1_2 : S128x128.BroadcastsInDim S1x128x128 (![1, 2] : Fin 2 → Fin S1x128x128.rank)
  bcast_S1x128x128_S16x128x128_0_1_2 : S1x128x128.BroadcastsInDim S16x128x128 (![0, 1, 2] : Fin 3 → Fin S16x128x128.rank)
  reducesTo_S16x128x128_S16x128_d2 : S16x128x128.ReducesTo [2] S16x128
  h_S_ : 0 < S_.numel
  bcast_S16x128_S16x128x1_0_1 : S16x128.BroadcastsInDim S16x128x1 (![0, 1] : Fin 2 → Fin S16x128x1.rank)
  bcast_S_S16x128x1 : S_.BroadcastsInDim S16x128x1 (![] : Fin 0 → Fin S16x128x1.rank)
  bcast_S16x128x1_S16x128x128_0_1_2 : S16x128x1.BroadcastsInDim S16x128x128 (![0, 1, 2] : Fin 3 → Fin S16x128x128.rank)
  bcast_S128_S1x128x1_1 : S128.BroadcastsInDim S1x128x1 (![1] : Fin 1 → Fin S1x128x1.rank)
  bcast_S1x128x1_S16x128x65536_0_1_2 : S1x128x1.BroadcastsInDim S16x128x65536 (![0, 1, 2] : Fin 3 → Fin S16x128x65536.rank)
  bcast_S_S16x128x65536 : S_.BroadcastsInDim S16x128x65536 (![] : Fin 0 → Fin S16x128x65536.rank)
  dot_S16x512_S512x768_S16x768_1_0_0_1_n_n_wf : DotDims.WF S16x512 S512x768 S16x768 [1] [0] [0] [1] [] []
  dot_S16x128x3_S16x3x128_S16x128x128_2_1_1_2_0_0_wf : DotDims.WF S16x128x3 S16x3x128 S16x128x128 [2] [1] [1] [2] [0] [0]
  dot_S16x128x128_S16x128x65536_S16x128x65536_2_1_1_2_0_0_wf : DotDims.WF S16x128x128 S16x128x65536 S16x128x65536 [2] [1] [1] [2] [0] [0]

variable [Facts₀]

def dot_S16x512_S512x768_S16x768_1_0_0_1_n_n : DotDims S16x512 S512x768 S16x768 where
  lhsContracting := [1]
  rhsContracting := [0]
  lhsNonContracting := [0]
  rhsNonContracting := [1]
  lhsBatch := []
  rhsBatch := []
  wf := dot_S16x512_S512x768_S16x768_1_0_0_1_n_n_wf
def dot_S16x128x3_S16x3x128_S16x128x128_2_1_1_2_0_0 : DotDims S16x128x3 S16x3x128 S16x128x128 where
  lhsContracting := [2]
  rhsContracting := [1]
  lhsNonContracting := [1]
  rhsNonContracting := [2]
  lhsBatch := [0]
  rhsBatch := [0]
  wf := dot_S16x128x3_S16x3x128_S16x128x128_2_1_1_2_0_0_wf
def dot_S16x128x128_S16x128x65536_S16x128x65536_2_1_1_2_0_0 : DotDims S16x128x128 S16x128x65536 S16x128x65536 where
  lhsContracting := [2]
  rhsContracting := [1]
  lhsNonContracting := [1]
  rhsNonContracting := [2]
  lhsBatch := [0]
  rhsBatch := [0]
  wf := dot_S16x128x128_S16x128x65536_S16x128x65536_2_1_1_2_0_0_wf

class Facts : Prop extends Facts₀ where

variable [Facts]
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.ConvSpec.lean ====
/-
  The result both programs compute, as one function of three arrays.

  For a per-sample weight `W : [16, 128, 128]`, points `x : [16, 128, 65536]` and a bias `b : [128]`, entry
  `(s, o, n)` of the result is `act (∑ k, W (s, o, k) · x (s, k, n) + b o)`: a matrix product per sample, the bias
  added along the output channel, then the activation.  `act a` is `a` where `a ≥ 0` and `a · slope` elsewhere, times
  the gain.  Sums and products are those of the extended reals; the three float constants (zero, the slope 0.2 and the
  gain √2, each as rounded to a float) stay as their words and are never evaluated: the same word denotes the same number
  wherever it occurs.
-/
import Idealize.ShloMosaic.PureOps.Ideal
import Idealize.ShloMosaic.Lib.ValueIdx

noncomputable section

namespace Cert.ModulatedConv

open Idealize.ShloMosaic Idealize.ShloMosaic.ValueIdx

/-- The activation on one extended real: keep `a` where `a ≥ 0`, scale it by the slope elsewhere, then scale by the gain. -/
def act (a : EReal) : EReal :=
  Scalar.select (Ideal.cmp .oge a (Ideal.ofBits .f32 0x00000000#32)) a (a * Ideal.ofBits .f32 0x3E4CCCCD#32)
    * Ideal.ofBits .f32 0x3FB504F3#32

/-- Entry `(s, o, n)`: the activation of row `o` of sample `s`'s weight against column `n` of sample `s`'s points, plus
    the bias of channel `o`. -/
def result (W : (⟨3, ![16, 128, 128]⟩ : Shape).Idx → EReal) (x : (⟨3, ![16, 128, 65536]⟩ : Shape).Idx → EReal)
    (b : (⟨1, ![128]⟩ : Shape).Idx → EReal) : (⟨3, ![16, 128, 65536]⟩ : Shape).Idx → EReal := fun i =>
  act ((∑ k : Fin 128, W (ix3 (i 0) (i 1) k) * x (ix3 (i 0) k (i 2))) + b (ix1 (i 1)))

end Cert.ModulatedConv

end
-- ==== Proof.BlockValue.lean ====
/-
  What the kernel's body computes from the three blocks it loads, read at one index.

  The body loads a `[1, 128, 128]` block `w` of the weight, a `[1, 128, 8192]` block `x` of the points and the
  `[128, 1]` bias column `b`; drops the leading unit axes; multiplies `w · x` into a zero accumulator (at the ideal
  values the change of float format before the product is the identity and the product is an exact sum over the shared
  axis); adds the column broadcast along the rows; applies the activation; and puts the unit axis back.  So entry
  `(0, o, n)` of what it stores is `act (∑ k, w (0, o, k) · x (0, k, n) + b (o, 0))`.
-/
import proofs.«156559_j54125177864471_1_alg».proof.Proof.Gen.KernelIdeal.Skeleton
import proofs.«156559_j54125177864471_1_alg».proof.Proof.LibPlainProduct
import proofs.«156559_j54125177864471_1_alg».proof.Proof.LibBroadcast
import proofs.«156559_j54125177864471_1_alg».proof.Proof.ConvSpec
import Idealize.ShloMosaic.Lib.ValueLayout

noncomputable section

namespace Cert.KernelIdeal.BlockValue

open Cert.KernelIdeal Cert.KernelIdeal.Gen Idealize.ShloMosaic Idealize.ShloMosaic.ValueIdx Cert.ModulatedConv

/-- The stored block at `(u, o, n)`: the re-layouts read through, the product as a sum over the shared axis, the bias
    column read at its row, and the pointwise tail recognised as the activation. -/
theorem stored_apply (w : Vec Ideal S1x128x128 .f32) (x : Vec Ideal S1x128x8192 .f32) (b : Vec Ideal S128x1 .f32)
    (u : Fin 1) (o : Fin 128) (n : Fin 8192) :
    k0_pay1 (F := Ideal) w x b (ix3 u o n)
      = act ((∑ k : Fin 128, w (ix3 (0 : Fin 1) o k) * x (ix3 (0 : Fin 1) k n)) + b (ix2 o (0 : Fin 1))) := by
  unfold k0_pay1
  refine (shapeCast_ab_1ab_apply _ _ u o n).trans ?_
  show act (addf (F := Ideal) (matmul (F := Ideal) _ none _ _ _) (broadcastTo S128x8192 _ _) (ix2 o n)) = _
  refine congrArg act ?_
  show matmul (F := Ideal) _ none _ _ _ (ix2 o n) + broadcastTo S128x8192 _ _ (ix2 o n) = _
  refine congrArg₂ (· + ·) ?_ ?_
  · refine (Cert.PlainProduct.matmul_nn_apply _ none _ _ o n).trans ?_
    refine Finset.sum_congr rfl fun k _ => ?_
    show shapeCast S128x128 w _ (ix2 o k) * shapeCast S128x8192 x _ (ix2 k n) = _
    rw [shapeCast_1ab_ab_apply, shapeCast_1ab_ab_apply]
  · refine (Cert.Layout.broadcastTo_a1_ab_apply _ _ o n).trans ?_
    rw [shapeCast_self]

/-- The same at any index `y` of the block: only its last two coordinates matter. -/
theorem stored_at (w : Vec Ideal S1x128x128 .f32) (x : Vec Ideal S1x128x8192 .f32) (b : Vec Ideal S128x1 .f32)
    (y : S1x128x8192.Idx) :
    k0_pay1 (F := Ideal) w x b y
      = act ((∑ k : Fin 128, w (ix3 (0 : Fin 1) (y 1) k) * x (ix3 (0 : Fin 1) k (y 2))) + b (ix2 (y 1) (0 : Fin 1))) := by
  obtain ⟨u, o, n, rfl⟩ : ∃ (u : Fin 1) (o : Fin 128) (n : Fin 8192), y = ix3 u o n := ⟨y 0, y 1, y 2, eq_ix3 y⟩
  exact stored_apply w x b u o n

end Cert.KernelIdeal.BlockValue

end
-- ==== Proof.RegionEntry.lean ====
/-
  The two arrays the kernel's region finds that the host wrote before it.

  Before the region the host computes the modulated, normalised weight (from `w`, `weight`, `affine_weight` and
  `affine_bias`) and re-lays the bias vector as a `[128, 1]` column.  The weight's operations are, one for one and
  constant for constant, those the reference applies before its own product, so the array the region finds is the
  reference's stage of that name applied to the same arguments; it is kept whole and never opened.  The column's entry
  `(o, 0)` is the bias at `o`.
-/
import proofs.«156559_j54125177864471_1_alg».proof.Proof.Gen.KernelIdeal.Frame
import proofs.«156559_j54125177864471_1_alg».proof.Proof.Gen.ReferenceIdeal.Read
import proofs.«156559_j54125177864471_1_alg».proof.Proof.LibBroadcast
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The bias column as the region finds it: the bias vector re-laid as `[128, 1]`. -/
theorem bias_column (c : Dev nD) :
    (V m c main_v27 : S128x1.Idx → EReal)
      = shapeCast S128x1 (m ((c : Thread nD τ).loc main_arg3)) Facts₀.shapeCasts_S128_S128x1 := by
  dsimp only [Gen.V, Gen.hostOps0]; after_results; rfl

/-- Read down its one column, it is the bias vector. -/
theorem bias_column_apply (c : Dev nD) :
    (fun j : S128.Idx => (V m c main_v27 : S128x1.Idx → EReal) (ix2 (j 0) (0 : Fin 1))) = m ((c : Thread nD τ).loc main_arg3) := by
  funext j
  obtain ⟨p, rfl⟩ : ∃ p : Fin 128, j = ix1 p := ⟨j 0, eq_ix1 j⟩
  rw [bias_column]
  exact Cert.Layout.shapeCast_col_apply _ _ p

set_option maxHeartbeats 2000000 in
/-- The weight as the region finds it: the reference's modulated weight of the same four arguments (the two programs
    apply the same operations with the same constants up to here). -/
theorem weight (c : Dev nD) :
    (V m c main_v26 : S16x128x128.Idx → EReal)
      = Cert.ReferenceIdeal.Read.val_main_v23 (F := Ideal) (m ((c : Thread nD τ).loc main_arg1)) (m ((c : Thread nD τ).loc main_arg2))
          (m ((c : Thread nD τ).loc main_arg4)) (m ((c : Thread nD τ).loc main_arg5)) := by
  dsimp only [Gen.V, Gen.hostOps0]
  after_results_simp <;> rfl

end Cert.KernelIdeal.RegionEntry

end
-- ==== Proof.WholeArray.lean ====
/-
  From what each grid point writes back to the whole output array.

  The grid has 16 × 8 points `(s, q)`.  At a point the region stages block `s` of the weight (all of sample `s`'s
  `128 × 128` matrix), columns `8192 q … 8192 q + 8191` of sample `s`'s points, and the bias column; the body computes
  one `128 × 8192` block from them; and the region writes it back as columns `8192 q …` of sample `s` of the output.
  Entry `(0, o, n)` of that block depends on row `o` of the weight block and column `n` of the points block, which are
  row `(s, o)` of the weight and column `(s, 8192 q + n)` of the points: the block is the restriction of `result` to its
  own rectangle.  The 128 blocks tile the output (index `(s, o, p)` lies in the block of the point `(s, p / 8192)`), so
  the array after the run is `result` of the weight the region finds, the points and the bias.
-/
import proofs.«156559_j54125177864471_1_alg».proof.Proof.Gen.KernelIdeal.Value
import proofs.«156559_j54125177864471_1_alg».proof.Proof.BlockValue
import proofs.«156559_j54125177864471_1_alg».proof.Proof.RegionEntry
import Idealize.ShloMosaic.Lib.Pipeline.Value

noncomputable section

namespace Cert.KernelIdeal.WholeArray

open Cert.KernelIdeal Cert.KernelIdeal.Gen Idealize.ShloMosaic Idealize.ShloMosaic.TcCoe Idealize.SL.Sem
open Idealize.ShloMosaic.ValueIdx Cert.ModulatedConv
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output array in terms of the arrays the region finds: `result` of the weight, the points and the bias column
    read down its one column. -/
abbrev target (c : Dev nD) : S16x128x65536.Idx → EReal :=
  result (V m c main_v26) (V m c main_arg0) (fun j => (V m c main_v27 : S128x1.Idx → EReal) (ix2 (j 0) (0 : Fin 1)))

/-- The block indices at a grid point, decided over the 128 points: the weight's block and the points' block are on the
    output block's sample; the points' block is on the output block's column range; every other block index is zero. -/
theorem block_indices : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 2) = 0 ∧ win0_2.index t (1 : Fin 2) = 0
    ∧ win0_3.index t (1 : Fin 3) = 0 :=
  (by decide +kernel : ∀ t : Fin grid0.N, _)

/-- Every pair of a sample and a column range is some point's output block. -/
theorem block_onto : ∀ (s : Fin 16) (q : Fin 8), ∃ t : Fin cfg0.N, win0_3.index t = ![s.val, 0, q.val] :=
  (by decide +kernel : ∀ (s : Fin 16) (q : Fin 8), ∃ t : Fin grid0.N, win0_3.index t = ![s.val, 0, q.val])

/-- What point `t` writes back is block `t` of `target`. -/
theorem flushed_eq (c : Dev nD) (t : Fin cfg0.N) :
    (dats m 0 c).flushed 3 t = ((cfg0.win 3).blk t).view.read (Elt Ideal) (target m c) := by
  rw [Value.flushed3]
  unfold out0_3
  rw [View.canon_unit_zero zeros3]
  simp only [View.ld_unit_zero (S := S1x128x128) zeros3, View.ld_unit_zero (S := S1x128x8192) zeros3,
    View.ld_unit_zero (S := S128x1) zeros2]
  obtain ⟨a0, a1, a2, b0, b1, b2, c0, c1, d1⟩ := block_indices t
  funext j
  have hj0 : (j 0).val < 1 := (j 0).isLt
  refine (BlockValue.stored_at (iblk m c 0 t) (iblk m c 1 t) (iblk m c 2 t) _).trans ?_
  rw [View.read_apply]
  show act _ = act _
  refine congrArg act (congrArg₂ (· + ·) (Finset.sum_congr rfl fun k _ => congrArg₂ (· * ·) ?_ ?_) ?_)
  · show V m c main_v26 (((cfg0.win 0).blk t).view.emb _) = V m c main_v26 _
    refine congrArg (V m c main_v26) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 128 + 1 * k.val = k.val; omega
  · show V m c main_arg0 (((cfg0.win 1).blk t).view.emb _) = V m c main_arg0 _
    refine congrArg (V m c main_arg0) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 128 + 1 * k.val = k.val; omega
    | ⟨2, _⟩ => show win0_1.index t (2 : Fin 3) * 8192 + 1 * (j 2).val = win0_3.index t (2 : Fin 3) * 8192 + 1 * (j 2).val; omega
  · show V m c main_v27 (((cfg0.win 2).blk t).view.emb _) = V m c main_v27 _
    refine congrArg (V m c main_v27) (funext fun a => Fin.ext ?_)
    match a with
    | ⟨0, _⟩ => show win0_2.index t (0 : Fin 2) * 128 + 1 * (j 1).val = win0_3.index t (1 : Fin 3) * 128 + 1 * (j 1).val; omega
    | ⟨1, _⟩ => show win0_2.index t (1 : Fin 2) * 1 + 1 * 0 = 0; omega

/-- An index of the output is in point `t`'s block iff each coordinate is in the block's range on its axis. -/
theorem mem_block (t : Fin cfg0.N) (i : S16x128x65536.Idx) :
    i ∈ ((cfg0.win 3).blk t).view.set ↔ ∀ a : Fin 3, win0_3.index t a * S1x128x8192.size a ≤ (i a).val
      ∧ (i a).val < win0_3.index t a * S1x128x8192.size a + S1x128x8192.size a := by
  show i ∈ ((View.whole main_v28).slice (win0_3.rect t)).set ↔ _
  rw [View.set_slice_whole, Rect.mem_set_unit]
  exact Iff.rfl

/-- Every index of the output is in some point's block: `(s, o, p)` in the block of sample `s` and column range `p / 8192`. -/
theorem covered (i : S16x128x65536.Idx) :
    ∃ t : Fin cfg0.N, (cfg0.win 3).flush t = true ∧ i ∈ ((cfg0.win 3).blk t).view.set := by
  have h0 : (i 0).val < 16 := (i 0).isLt
  have h1 : (i 1).val < 128 := (i 1).isLt
  have h2 : (i 2).val < 65536 := (i 2).isLt
  obtain ⟨t, ht⟩ := block_onto ⟨(i 0).val, h0⟩ ⟨(i 2).val / 8192, by omega⟩
  have q0 : win0_3.index t (0 : Fin 3) = (i 0).val := congrFun ht 0
  have q1 : win0_3.index t (1 : Fin 3) = 0 := congrFun ht 1
  have q2 : win0_3.index t (2 : Fin 3) = (i 2).val / 8192 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 8192 ≤ (i 2).val ∧ (i 2).val < win0_3.index t (2 : Fin 3) * 8192 + 8192; omega

/-- So the output array ends holding `target`. -/
theorem final (c : Dev nD) : (dats m 0 c).arrAt 3 cfg0.N = target m c :=
  (dats m 0 c).arrAt_eq_of_cover 3 (target m c) (fun t _ => flushed_eq m c t) covered

/-- `target` in terms of the arguments as launched: the reference's modulated weight of `w`, `weight`, `affine_weight`
    and `affine_bias`; the points; the bias. -/
theorem target_eq (c : Dev nD) :
    target m c = result (Cert.ReferenceIdeal.Read.val_main_v23 (F := Ideal) (m ((c : Thread nD τ).loc main_arg1))
        (m ((c : Thread nD τ).loc main_arg2)) (m ((c : Thread nD τ).loc main_arg4)) (m ((c : Thread nD τ).loc main_arg5)))
      (m ((c : Thread nD τ).loc main_arg0)) (m ((c : Thread nD τ).loc main_arg3)) := by
  show result _ _ _ = _
  rw [RegionEntry.bias_column_apply m c, RegionEntry.weight m c, V_main_arg0 m c]

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v28)
        = result (Cert.ReferenceIdeal.Read.val_main_v23 (F := Ideal) (m ((c : Thread nD τ).loc main_arg1))
            (m ((c : Thread nD τ).loc main_arg2)) (m ((c : Thread nD τ).loc main_arg4)) (m ((c : Thread nD τ).loc main_arg5)))
          (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (target_eq m c)), (h c).2⟩)
    (Value.run_blocks m ρ)

end Cert.KernelIdeal.WholeArray

end
-- ==== Proof.ReferenceValue.lean ====
/-
  The reference's result is the specification's function of its arguments.

  The reference computes the modulated weight on the host (a term of `w`, `weight`, `affine_weight` and `affine_bias`
  that is kept whole here), then one batched product of that weight with the points, contracting the weight's last axis
  with the points' middle axis, sample by sample; adds the bias broadcast along the channel axis; and applies the
  activation as compare, scale, select, scale.  Read at an index `(s, o, n)`, stage by stage, this is
  `act (∑ k, W (s, o, k) · x (s, k, n) + b o)`: the batched product is that sum at the ideal values, and the pointwise
  stages are the activation's definition.
-/
import proofs.«156559_j54125177864471_1_alg».proof.Proof.Gen.ReferenceIdeal.Read
import proofs.«156559_j54125177864471_1_alg».proof.Proof.ConvSpec

noncomputable section

namespace Cert.ReferenceIdeal.RefValue

open Cert.ReferenceIdeal Cert.ReferenceIdeal.Read Idealize.ShloMosaic Idealize.ShloMosaic.ValueIdx Cert.ModulatedConv

/-- The batched product reads the weight at `(s, o, k)`, -/
theorem weight_idx (i : S16x128x65536.Idx) (k : Fin 128) : lidx_main_v24 i k = ix3 (i 0) (i 1) k :=
  funext fun a => Fin.ext (by match a with | ⟨0, _⟩ => rfl | ⟨1, _⟩ => rfl | ⟨2, _⟩ => rfl)

/-- and the points at `(s, k, n)`. -/
theorem points_idx (i : S16x128x65536.Idx) (k : Fin 128) : ridx_main_v24 i k = ix3 (i 0) k (i 2) :=
  funext fun a => Fin.ext (by match a with | ⟨0, _⟩ => rfl | ⟨1, _⟩ => rfl | ⟨2, _⟩ => rfl)

/-- The bias, broadcast first to `[1, 128, 1]` and then to the result's shape, is read at the channel `o`. -/
theorem bias_idx (i : S16x128x65536.Idx) : idx_main_v25 (idx_main_v26 i) = ix1 (i 1) :=
  funext fun a => Fin.ext (by match a with | ⟨0, _⟩ => rfl)

/-- The last stage of the reference is `result` of the modulated weight (the stage the host computes before the
    product), the points and the bias. -/
theorem result_eq (x0 : (⟨S16x128x65536, .f32⟩ : BufTy).Contents (Elt Ideal)) (x1 : (⟨S16x512, .f32⟩ : BufTy).Contents (Elt Ideal))
    (x2 : (⟨S128x128, .f32⟩ : BufTy).Contents (Elt Ideal)) (x3 : (⟨S128, .f32⟩ : BufTy).Contents (Elt Ideal))
    (x4 : (⟨S768x512, .f32⟩ : BufTy).Contents (Elt Ideal)) (x5 : (⟨S768, .f32⟩ : BufTy).Contents (Elt Ideal)) :
    val_main_v34 (F := Ideal) x0 x1 x2 x3 x4 x5 = result (val_main_v23 (F := Ideal) x1 x2 x4 x5) x0 x3 := by
  funext i
  rw [val_main_v34_apply, val_main_v32_apply, val_main_v29_apply, val_main_v31_apply, val_main_v27_apply,
    val_main_v24_apply, val_main_v26_apply, val_main_v25_apply, val_main_v28_apply, val_main_v30_apply, val_main_v33_apply,
    val_main_cst_3_apply, val_main_cst_4_apply, val_main_cst_5_apply]
  simp only [weight_idx, points_idx, bias_idx]
  rfl

end Cert.ReferenceIdeal.RefValue

end
-- ==== Proof.lean ====
/-
  A modulated, normalised `128 × 128` weight per sample applied to `65536` points per sample, plus a bias per output
  channel, through a leaky activation with gain: the kernel against its reference, on the extended reals.

  Both programs first compute the same weight on the host, by the same operations with the same constants: the
  modulation `w · (affine_weight · c)ᵀ + affine_bias` split into two low-rank factors, their product divided by `√3` as
  rounded to a float, `weight · (modulation + 1)`, and each row divided by its Euclidean norm plus a small constant.
  The reference then takes one batched product of that weight with the points, adds the bias and applies the
  activation.  The kernel runs a `16 × 8` grid: at point `(s, q)` it multiplies sample `s`'s weight with columns
  `8192 q … 8192 q + 8191` of sample `s`'s points (rounding both to a shorter float first, which at the ideal values
  is the identity), adds the bias column and applies the same activation with the same constants, and writes the block
  back at the same columns of the output.

  At the ideal values a product into a zero accumulator and the host's batched product are the same finite sum over the
  shared axis, so entry `(s, o, n)` of either result is `act (∑ k, W (s, o, k) · x (s, k, n) + b o)` with `W` the common
  weight (`Cert.ModulatedConv.result`).  No law beyond that is used, so nothing is asked of the inputs and the
  precondition is never opened: the kernel's blocks are restrictions of that one function and tile the output
  (`WholeArray`), the reference's stages read index by index give the same function (`ReferenceValue`), and the weight
  the kernel's region finds is the reference's stage of the same arguments (`RegionEntry`).

  The idealization changed no operation of the kernel, so that claim is trivial; the kernel's two frames are the
  generated ones, and the reference's frame is its generated run with the result dropped.
-/
import proofs.«156559_j54125177864471_1_alg».proof.Defs
import proofs.«156559_j54125177864471_1_alg».proof.Proof.Gen.Kernel
import proofs.«156559_j54125177864471_1_alg».proof.Proof.Gen.Kernel.Skeleton
import proofs.«156559_j54125177864471_1_alg».proof.Proof.Gen.Kernel.Launch
import proofs.«156559_j54125177864471_1_alg».proof.Proof.Gen.Kernel.Points
import proofs.«156559_j54125177864471_1_alg».proof.Proof.Gen.Kernel.Frame
import proofs.«156559_j54125177864471_1_alg».proof.Proof.Gen.KernelIdeal
import proofs.«156559_j54125177864471_1_alg».proof.Proof.Gen.KernelIdeal.Skeleton
import proofs.«156559_j54125177864471_1_alg».proof.Proof.Gen.KernelIdeal.Launch
import proofs.«156559_j54125177864471_1_alg».proof.Proof.Gen.KernelIdeal.Points
import proofs.«156559_j54125177864471_1_alg».proof.Proof.Gen.KernelIdeal.Frame
import proofs.«156559_j54125177864471_1_alg».proof.Proof.Gen.KernelIdeal.Value
import proofs.«156559_j54125177864471_1_alg».proof.Proof.Gen.ReferenceIdeal
import proofs.«156559_j54125177864471_1_alg».proof.Proof.Gen.ReferenceIdeal.Run
import proofs.«156559_j54125177864471_1_alg».proof.Proof.Gen.ReferenceIdeal.Read
import proofs.«156559_j54125177864471_1_alg».proof.Proof.Gen.Pre_finite_inputs
import proofs.«156559_j54125177864471_1_alg».proof.Proof.WholeArray
import proofs.«156559_j54125177864471_1_alg».proof.Proof.ReferenceValue
import Idealize.ShloMosaic.Adequacy
import Idealize.ShloMosaic.Init

noncomputable section

namespace Cert.Proof

open Idealize.ShloMosaic Idealize.SL.Sem

/-- The kernel as printed runs and leaves its arguments as they were: the generated frame. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments as they were: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `result` of the common
    weight, the points and the bias: the kernel by its blocks, the reference by its stages. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v34_eq, Cert.ReferenceIdeal.RefValue.result_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
